-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The kernel program's run with its result named: every weakly fair execution of @main terminates without a fault,
  the argument arrays end as launched, and the result array ends at the contents the fold of @main's segments (the host
  stretch, the first region, the host stretch, the second region) leaves in it: region 1's output array after its last
  grid point. This is the launch theorem for a program of several regions, applied to the program's segments exactly as
  in the frame of the argument arrays, with one more buffer of the final thread state read back.
-/
import proofs.«148758_j26817775796491_2_alg».proof.Proof.Gen.KernelIdeal.Frame

set_option maxRecDepth 16384

noncomputable section

namespace Cert.Sage2.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result array ends at the last boundary's
    contents and the argument arrays as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage2.KRun

end
-- ==== Proof.Spec.lean ====
/-
  One mean-aggregation graph layer, entry by entry, in the two arrangements the two programs use.

  A node p has an aggregated feature row agg(p,·), its own feature row x(p,·), and a neighbour count; two weight
  matrices Wl, Wr act on rows by the product with their transposes, and a bias row is added:

    kernel form     (∑ k, (agg(p,k) · inv(p)) · Wl(q,k)  +  ∑ k, x(p,k) · Wr(q,k))  +  b(q)
    reference form  (∑ k, (agg(p,k) / cm(p)) · Wl(q,k)   +  ∑ k, x(p,k) · Wr(q,k))  +  b(q)

  with inv(p) = 1 / cm(p) and cm(p) = max(count(p), 1). On the extended reals the quotient by a NONZERO divisor is the
  product with the divisor's inverse, so a · (1 / c) = a / c for every extended real a (no finiteness is needed), and
  cm(p) ≥ 1 is never zero: the two forms are one number.
-/
import Idealize.ShloMosaic.PureOps.Ideal
import Idealize.ShloMosaic.PureOps.Ideal.Laws
import Idealize.ShloMosaic.Lib.ValueIdx

noncomputable section

namespace Cert.Sage2

open Idealize.ShloMosaic Idealize.ShloMosaic.ValueIdx

/-- The float word of 1.0. -/
abbrev oneW : EReal := Ideal.ofBits .f32 0x3F800000#32
/-- The float word of 0.0. -/
abbrev zeroW : EReal := Ideal.ofBits .f32 0x00000000#32

/-- The word 0x3F800000 denotes the real number one. -/
theorem oneW_eq : oneW = 1 := by
  simp [oneW, Ideal.ofBits, Ideal.ieee, -EReal.coe_mul]
  norm_num

/-- The rectifier: the larger of a value and the zero word. -/
def relu0 (v : EReal) : EReal := max v zeroW

/-- Entry (p, q) of a layer in the kernel's arrangement: the aggregated row scaled by the node's inverse count before
    the product with Wl's row q; the node's own row times Wr's row q; the bias entry q. -/
def kerEntry {N D : ℕ} (agg : (⟨2, ![N, D]⟩ : Shape).Idx → EReal) (inv : (⟨2, ![N, 1]⟩ : Shape).Idx → EReal)
    (x : (⟨2, ![N, D]⟩ : Shape).Idx → EReal) (Wl Wr : (⟨2, ![D, D]⟩ : Shape).Idx → EReal)
    (b : (⟨2, ![1, D]⟩ : Shape).Idx → EReal) (p : Fin N) (q : Fin D) : EReal :=
  (∑ k : Fin D, (agg (ix2 p k) * inv (ix2 p (0 : Fin 1))) * Wl (ix2 q k) + ∑ k : Fin D, x (ix2 p k) * Wr (ix2 q k))
    + b (ix2 (0 : Fin 1) q)

/-- Entry (p, q) of a layer in the reference's arrangement: the aggregated row divided by the node's clamped count. -/
def refEntry {N D : ℕ} (agg : (⟨2, ![N, D]⟩ : Shape).Idx → EReal) (cm : (⟨1, ![N]⟩ : Shape).Idx → EReal)
    (x : (⟨2, ![N, D]⟩ : Shape).Idx → EReal) (Wl Wr : (⟨2, ![D, D]⟩ : Shape).Idx → EReal)
    (b : (⟨1, ![D]⟩ : Shape).Idx → EReal) (p : Fin N) (q : Fin D) : EReal :=
  (∑ k : Fin D, Ideal.div (agg (ix2 p k)) (cm (ix1 p)) * Wl (ix2 q k) + ∑ k : Fin D, x (ix2 p k) * Wr (ix2 q k))
    + b (ix1 q)

/-- A count clamped below by one is not zero. -/
theorem max_one_ne_zero (c : EReal) : max c oneW ≠ 0 := by
  rw [oneW_eq]
  exact ne_of_gt (lt_of_lt_of_le zero_lt_one (le_max_right c 1))

/-- Scaling by the inverse of a nonzero divisor is dividing by it, for every extended real. -/
theorem mul_inv_eq_div (a c : EReal) (hc : c ≠ 0) : a * Ideal.div oneW c = Ideal.div a c := by
  rw [oneW_eq, Ideal.div, Ideal.div, if_neg hc, if_neg hc, one_mul]

/-- The two arrangements of a layer's entry agree when the inverse count is one over the clamped count, the clamped
    count is the larger of the count and one, and the two bias rows hold the same entries. -/
theorem kerEntry_eq_refEntry {N D : ℕ} (agg : (⟨2, ![N, D]⟩ : Shape).Idx → EReal)
    (inv : (⟨2, ![N, 1]⟩ : Shape).Idx → EReal) (cm cnt : (⟨1, ![N]⟩ : Shape).Idx → EReal)
    (x : (⟨2, ![N, D]⟩ : Shape).Idx → EReal) (Wl Wr : (⟨2, ![D, D]⟩ : Shape).Idx → EReal)
    (b2 : (⟨2, ![1, D]⟩ : Shape).Idx → EReal) (b : (⟨1, ![D]⟩ : Shape).Idx → EReal) (p : Fin N) (q : Fin D)
    (hinv : inv (ix2 p (0 : Fin 1)) = Ideal.div oneW (cm (ix1 p)))
    (hcm : cm (ix1 p) = max (cnt (ix1 p)) oneW)
    (hb : b2 (ix2 (0 : Fin 1) q) = b (ix1 q)) :
    kerEntry agg inv x Wl Wr b2 p q = refEntry agg cm x Wl Wr b p q := by
  unfold kerEntry refEntry
  rw [hb, hinv]
  have hc : cm (ix1 p) ≠ 0 := by rw [hcm]; exact max_one_ne_zero _
  simp only [mul_inv_eq_div _ _ hc]

end Cert.Sage2

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KPayload.lean ====
/-
  The arithmetic of the two kernel bodies, read at an entry (p, q) of a 5000-row block.

  Each body takes six blocks: the aggregated rows agg, the column of inverse counts inv, the nodes' own rows x, the two
  weight matrices Wl, Wr and the bias row b. It scales row p of agg by inv(p), multiplies the scaled rows by the
  transpose of Wl and the own rows by the transpose of Wr (both products contract the SECOND axis of both operands, into
  a zero accumulator), adds the two products and the bias row; the first body then takes the larger of the result and
  zero. Over the extended reals the roundings are the identity, so entry (p, q) of a body is

    (∑ k, (agg(p,k) · inv(p)) · Wl(q,k)  +  ∑ k, x(p,k) · Wr(q,k))  +  b(q),

  rectified for the first body: exactly the kernel form of a layer's entry.
-/
import proofs.«148758_j26817775796491_2_alg».proof.Proof.Gen.KernelIdeal.Skeleton
import proofs.«148758_j26817775796491_2_alg».proof.Proof.Spec
import proofs.«148758_j26817775796491_2_alg».proof.Proof.LibMatmulRows
import proofs.«148758_j26817775796491_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.Sage2.KPayload

open Idealize.ShloMosaic Idealize.ShloMosaic.ValueIdx Cert.KernelIdeal Cert.KernelIdeal.Gen Cert.Sage2

/-- The product's dimension record: both operands contract their second axis; the output's row is the left operand's
    row, the output's column the right operand's ROW. -/
abbrev dd : DotDims S5000x128 S128x128 S5000x128 := dot_S5000x128_S128x128_S5000x128_1_1_0_0_n_n

/-- The left index's row is the output's row. -/
theorem dd_lhs0 (i : S5000x128.Idx) (c : dd.contr.Idx) : (dd.lhsIdx i c 0).val = (i 0).val := by
  unfold DotDims.lhsIdx
  rw [dif_neg (show ¬(0 : Fin S5000x128.rank) ∈ dd.lhsBatch by decide),
    dif_pos (show (0 : Fin S5000x128.rank) ∈ dd.lhsNonContracting by decide)]
  rfl

/-- The left index's column is the contraction position. -/
theorem dd_lhs1 (i : S5000x128.Idx) (c : dd.contr.Idx) : (dd.lhsIdx i c 1).val = (c ⟨0, by decide⟩).val :=
  dd.lhsIdx_val_of_single rfl i c

/-- The right index's row is the output's column. -/
theorem dd_rhs0 (i : S5000x128.Idx) (c : dd.contr.Idx) : (dd.rhsIdx i c 0).val = (i 1).val := by
  unfold DotDims.rhsIdx
  rw [dif_neg (show ¬(0 : Fin S128x128.rank) ∈ dd.rhsBatch by decide),
    dif_pos (show (0 : Fin S128x128.rank) ∈ dd.rhsNonContracting by decide)]
  rfl

/-- The right index's column is the contraction position. -/
theorem dd_rhs1 (i : S5000x128.Idx) (c : dd.contr.Idx) : (dd.rhsIdx i c 1).val = (c ⟨0, by decide⟩).val :=
  dd.rhsIdx_val_of_single rfl i c

/-- The body's product into a zero accumulator at (p, q): row p of the left operand times row q of the right one. -/
theorem mm_apply {φ₁ φ₂ : FTy} (L : FVec Ideal S5000x128 φ₁) (R : FVec Ideal S128x128 φ₂) (p : Fin 5000) (q : Fin 128) :
    matmul (F := Ideal) dot_S5000x128_S128x128_S5000x128_1_1_0_0_n_n none L R
        (constant (F := Ideal) S5000x128 .f32 0x00000000#32) (ix2 p q)
      = ∑ k : Fin 128, L (ix2 p k) * R (ix2 q k) :=
  Cert.MatmulRows.matmul_rows_rows dd rfl rfl dd_lhs0 dd_lhs1 dd_rhs0 dd_rhs1 none L R p q

/-- Entry (p, q) of the first body: the kernel form of the layer's entry, rectified. The rectifier's second operand is
    the zero word at every entry; the scaled aggregate's entry (p, k) is agg(p,k) · inv(p), the column of inverse counts
    read at row p whatever the column k. -/
theorem pay0_apply (x0 : FVec Ideal S5000x128 .f32) (x1 : FVec Ideal S5000x1 .f32) (x2 : FVec Ideal S5000x128 .f32)
    (x3 x4 : FVec Ideal S128x128 .f32) (x5 : FVec Ideal S1x128 .f32) (p : Fin 5000) (q : Fin 128) :
    k0_pay1 (F := Ideal) x0 x1 x2 x3 x4 x5 (ix2 p q) = relu0 (kerEntry x0 x1 x2 x3 x4 x5 p q) := by
  unfold k0_pay1 relu0 kerEntry
  rw [shapeCast_self, shapeCast_self, shapeCast_self]
  refine (maximumf_apply _ _ _).trans ?_
  refine congrArg₂ max ((addf_apply _ _ _).trans ?_) rfl
  refine congrArg₂ (· + ·) ((addf_apply _ _ _).trans ?_) (broadcastTo_1b_ab_apply x5 _ p q)
  refine congrArg₂ (· + ·) ((mm_apply _ _ p q).trans ?_) ((mm_apply _ _ p q).trans ?_)
  · refine Finset.sum_congr rfl fun k _ => ?_
    show x0 (ix2 p k) * broadcastTo S5000x128 x1 broadcasts_S5000x1_S5000x128 (ix2 p k) * x3 (ix2 q k) = _
    rw [Cert.Keepdims.broadcastTo_a1_ab_apply]
  · rfl

/-- Entry (p, q) of the second body: the kernel form of the layer's entry, with no rectifier. -/
theorem pay1_apply (x0 : FVec Ideal S5000x128 .f32) (x1 : FVec Ideal S5000x1 .f32) (x2 : FVec Ideal S5000x128 .f32)
    (x3 x4 : FVec Ideal S128x128 .f32) (x5 : FVec Ideal S1x128 .f32) (p : Fin 5000) (q : Fin 128) :
    k1_pay1 (F := Ideal) x0 x1 x2 x3 x4 x5 (ix2 p q) = kerEntry x0 x1 x2 x3 x4 x5 p q := by
  unfold k1_pay1 kerEntry
  rw [shapeCast_self, shapeCast_self, shapeCast_self, shapeCast_self]
  refine (addf_apply _ _ _).trans ?_
  refine congrArg₂ (· + ·) ((addf_apply _ _ _).trans ?_) (broadcastTo_1b_ab_apply x5 _ p q)
  refine congrArg₂ (· + ·) ((mm_apply _ _ p q).trans ?_) ((mm_apply _ _ p q).trans ?_)
  · refine Finset.sum_congr rfl fun k _ => ?_
    show x0 (ix2 p k) * broadcastTo S5000x128 x1 broadcasts_S5000x1_S5000x128 (ix2 p k) * x3 (ix2 q k) = _
    rw [Cert.Keepdims.broadcastTo_a1_ab_apply]
  · rfl

end Cert.Sage2.KPayload

end
-- ==== Proof.KBlocks.lean ====
/-
  From what each grid point writes back to the whole output array, for the two mean-aggregation layers.

  Each layer's kernel runs over 20 grid points. Point t holds rows 5000·t … 5000·t + 4999 of the aggregated features, of
  the inverse counts and of the node features, the whole of the two weight matrices and of the bias row, and writes back
  rows 5000·t … 5000·t + 4999 of the output. Entry (p, q) of a layer reads only row p of the row-blocked arrays, row q of
  the weight matrices and entry q of the bias, so the entry computed from a point's blocks at local row p is the entry of
  the whole arrays at row 5000·t + p. The 20 blocks of rows cover all 100000 rows (row r is in block r / 5000), so the
  output array ends holding the layer's entry at every index. What a point's payload computes from its blocks is a
  hypothesis here: entry (p, q) of the payload is the layer's entry (p, q) of the blocks (rectified, in the first layer).
-/
import proofs.«148758_j26817775796491_2_alg».proof.Proof.Gen.KernelIdeal.Frame
import proofs.«148758_j26817775796491_2_alg».proof.Proof.Spec
import Idealize.ShloMosaic.Lib.Pipeline.Value
import Idealize.ShloMosaic.Lib.ValueIdx

set_option maxRecDepth 16384

noncomputable section

namespace Cert.Sage2.KBlocks

open Idealize.ShloMosaic Idealize.ShloMosaic.TcCoe Idealize.ShloMosaic.ValueIdx Idealize.SL.Sem Cert.KernelIdeal Cert.KernelIdeal.Gen Cert.Sage2

/-- The zero offsets of a whole-block access, however the zeros are spelt. -/
theorem zero_offsets : (![0, 0] : Fin 2 → Nat) = fun _ => 0 := funext fun a => by fin_cases a <;> rfl

/-- A layer's entry reads only row p of the aggregated rows, of the inverse counts and of the node rows, row q of the two
    weight matrices and entry q of the bias: two sets of arrays that agree there give the same entry. -/
theorem kerEntry_congr {N N' D : ℕ}
    (A X : (⟨2, ![N, D]⟩ : Shape).Idx → EReal) (I : (⟨2, ![N, 1]⟩ : Shape).Idx → EReal)
    (A' X' : (⟨2, ![N', D]⟩ : Shape).Idx → EReal) (I' : (⟨2, ![N', 1]⟩ : Shape).Idx → EReal)
    (Wl Wr Wl' Wr' : (⟨2, ![D, D]⟩ : Shape).Idx → EReal) (B B' : (⟨2, ![1, D]⟩ : Shape).Idx → EReal)
    (p : Fin N) (p' : Fin N') (q : Fin D)
    (hA : ∀ k : Fin D, A' (ix2 p' k) = A (ix2 p k)) (hI : I' (ix2 p' (0 : Fin 1)) = I (ix2 p (0 : Fin 1)))
    (hX : ∀ k : Fin D, X' (ix2 p' k) = X (ix2 p k))
    (hWl : ∀ k : Fin D, Wl' (ix2 q k) = Wl (ix2 q k)) (hWr : ∀ k : Fin D, Wr' (ix2 q k) = Wr (ix2 q k))
    (hB : B' (ix2 (0 : Fin 1) q) = B (ix2 (0 : Fin 1) q)) :
    kerEntry A' I' X' Wl' Wr' B' p' q = kerEntry A I X Wl Wr B p q := by
  unfold kerEntry
  simp only [hA, hI, hX, hWl, hWr, hB]

variable (V : (c : Dev nD) → (b : Ref sig .tc) → Buf (Elt Ideal) ((c : Thread nD τ).loc b))

/-! ## The first layer -/

/-- The array the first layer's kernel leaves: the rectified entry of the arrays it finds, index by index. -/
abbrev layer0 (c : Dev nD) : S100000x128.Idx → EReal := fun (i : S100000x128.Idx) =>
  relu0 (kerEntry (V c main_v22) (V c main_v12) (V c main_arg0) (V c main_arg2) (V c main_arg3) (V c main_v23) (i 0) (i 1))

/-- The windows' block indices, decided over the grid: at point t the aggregated rows, the inverse counts, the node rows and
    the output are at row block t, column block 0; the two weight matrices and the bias are whole, at block (0, 0). -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- One entry of what a point writes: when the blocks hold, in their row p, the arrays' row of the output index j, and
    the whole weight matrices and bias, the payload's entry (p, q) is the array-level rectified entry at j. -/
theorem block_entry0 (hpay : ∀ (x0 : FVec Ideal S5000x128 .f32) (x1 : FVec Ideal S5000x1 .f32) (x2 : FVec Ideal S5000x128 .f32) (x3 x4 : FVec Ideal S128x128 .f32) (x5 : FVec Ideal S1x128 .f32) (p : Fin 5000) (q : Fin 128), k0_pay1 (F := Ideal) x0 x1 x2 x3 x4 x5 (ix2 p q) = relu0 (kerEntry x0 x1 x2 x3 x4 x5 p q))
    (A X : S100000x128.Idx → EReal) (I : S100000x1.Idx → EReal) (Wl Wr : S128x128.Idx → EReal) (B : S1x128.Idx → EReal)
    (a x : FVec Ideal S5000x128 .f32) (i : FVec Ideal S5000x1 .f32) (wl wr : FVec Ideal S128x128 .f32)
    (b : FVec Ideal S1x128 .f32) (j : S100000x128.Idx) (p : Fin 5000) (q : Fin 128) (hq : (j 1).val = q.val)
    (ha : ∀ k : Fin 128, a (ix2 p k) = A (ix2 (j 0) k)) (hi : i (ix2 p (0 : Fin 1)) = I (ix2 (j 0) (0 : Fin 1)))
    (hx : ∀ k : Fin 128, x (ix2 p k) = X (ix2 (j 0) k))
    (hwl : ∀ k : Fin 128, wl (ix2 q k) = Wl (ix2 q k)) (hwr : ∀ k : Fin 128, wr (ix2 q k) = Wr (ix2 q k))
    (hb : b (ix2 (0 : Fin 1) q) = B (ix2 (0 : Fin 1) q)) :
    k0_pay1 (F := Ideal) a i x wl wr b (ix2 p q) = relu0 (kerEntry A I X Wl Wr B (j 0) (j 1)) := by
  have e : j 1 = q := Fin.ext hq
  rw [hpay, e]
  exact congrArg relu0 (kerEntry_congr A X I a x i Wl Wr wl wr B b (j 0) p q ha hi hx hwl hwr hb)

/-- WHAT POINT t WRITES BACK is the block of rows it covers of the first layer's array. -/
theorem flushed0_eq (hpay : ∀ (x0 : FVec Ideal S5000x128 .f32) (x1 : FVec Ideal S5000x1 .f32) (x2 : FVec Ideal S5000x128 .f32) (x3 x4 : FVec Ideal S128x128 .f32) (x5 : FVec Ideal S1x128 .f32) (p : Fin 5000) (q : Fin 128), k0_pay1 (F := Ideal) x0 x1 x2 x3 x4 x5 (ix2 p q) = relu0 (kerEntry x0 x1 x2 x3 x4 x5 p q)) (c : Dev nD) (t : Fin cfg0.N) :
    (dat0 (F := Ideal) V c).flushed 6 t = ((cfg0.win 6).blk t).view.read (Elt Ideal) (layer0 V c) := by
  show (cfg0.win 6).cut (grid0.coords t) ((dat0 (F := Ideal) V c).after 6 t) = _
  rw [after0_6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  obtain ⟨e00, e01, e10, e11, e20, e21, e30, e31, e40, e41, e50, e51, e60, e61⟩ := block_index0 t
  refine funext fun (y : S5000x128.Idx) => ?_
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 p q)
    = relu0 (kerEntry (V c main_v22) (V c main_v12) (V c main_arg0) (V c main_arg2) (V c main_arg3) (V c main_v23)
        ((((cfg0.win 6).blk t).view.emb (ix2 p q)) 0) ((((cfg0.win 6).blk t).view.emb (ix2 p q)) 1))
  refine block_entry0 hpay (V c main_v22) (V c main_arg0) (V c main_v12) (V c main_arg2) (V c main_arg3) (V c main_v23)
    (iblk0 V c 0 t) (iblk0 V c 2 t) (iblk0 V c 1 t) (iblk0 V c 3 t) (iblk0 V c 4 t) (iblk0 V c 5 t)
    (((cfg0.win 6).blk t).view.emb (ix2 p q)) p q ?_ ?_ ?_ ?_ ?_ ?_ ?_
  · show win0_6.index t (1 : Fin 2) * 128 + 1 * q.val = q.val
    omega
  · intro k
    show (V c main_v22 : S100000x128.Idx → EReal) (((cfg0.win 0).blk t).view.emb (ix2 p k))
      = (V c main_v22 : S100000x128.Idx → EReal) (ix2 ((((cfg0.win 6).blk t).view.emb (ix2 p q)) 0) k)
    congr 1; funext a; apply Fin.ext
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  · show (V c main_v12 : S100000x1.Idx → EReal) (((cfg0.win 1).blk t).view.emb (ix2 p (0 : Fin 1)))
      = (V c main_v12 : S100000x1.Idx → EReal) (ix2 ((((cfg0.win 6).blk t).view.emb (ix2 p q)) 0) (0 : Fin 1))
    congr 1; funext a; apply Fin.ext
    match a with
    | ⟨0, _⟩ => show win0_1.index t (0 : Fin 2) * 5000 + 1 * p.val = win0_6.index t (0 : Fin 2) * 5000 + 1 * p.val; omega
    | ⟨1, _⟩ => show win0_1.index t (1 : Fin 2) * 1 + 1 * (0 : Fin 1).val = (0 : Fin 1).val; omega
  · intro k
    show (V c main_arg0 : S100000x128.Idx → EReal) (((cfg0.win 2).blk t).view.emb (ix2 p k))
      = (V c main_arg0 : S100000x128.Idx → EReal) (ix2 ((((cfg0.win 6).blk t).view.emb (ix2 p q)) 0) k)
    congr 1; funext a; apply Fin.ext
    match a with
    | ⟨0, _⟩ => show win0_2.index t (0 : Fin 2) * 5000 + 1 * p.val = win0_6.index t (0 : Fin 2) * 5000 + 1 * p.val; omega
    | ⟨1, _⟩ => show win0_2.index t (1 : Fin 2) * 128 + 1 * k.val = k.val; omega
  · intro k
    show (V c main_arg2 : S128x128.Idx → EReal) (((cfg0.win 3).blk t).view.emb (ix2 q k))
      = (V c main_arg2 : S128x128.Idx → EReal) (ix2 q k)
    congr 1; funext a; apply Fin.ext
    match a with
    | ⟨0, _⟩ => show win0_3.index t (0 : Fin 2) * 128 + 1 * q.val = q.val; omega
    | ⟨1, _⟩ => show win0_3.index t (1 : Fin 2) * 128 + 1 * k.val = k.val; omega
  · intro k
    show (V c main_arg3 : S128x128.Idx → EReal) (((cfg0.win 4).blk t).view.emb (ix2 q k))
      = (V c main_arg3 : S128x128.Idx → EReal) (ix2 q k)
    congr 1; funext a; apply Fin.ext
    match a with
    | ⟨0, _⟩ => show win0_4.index t (0 : Fin 2) * 128 + 1 * q.val = q.val; omega
    | ⟨1, _⟩ => show win0_4.index t (1 : Fin 2) * 128 + 1 * k.val = k.val; omega
  · show (V c main_v23 : S1x128.Idx → EReal) (((cfg0.win 5).blk t).view.emb (ix2 (0 : Fin 1) q))
      = (V c main_v23 : S1x128.Idx → EReal) (ix2 (0 : Fin 1) q)
    congr 1; funext a; apply Fin.ext
    match a with
    | ⟨0, _⟩ => show win0_5.index t (0 : Fin 2) * 1 + 1 * (0 : Fin 1).val = (0 : Fin 1).val; omega
    | ⟨1, _⟩ => show win0_5.index t (1 : Fin 2) * 128 + 1 * q.val = q.val; omega

/-- An index of the output array is in the block of rows point t covers iff each coordinate is in the block's range on its
    axis. -/
theorem mem_rowBlock0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- The twenty blocks of 5000 rows cover the 100000 rows: row r is in the block of point r / 5000, which writes back. -/
theorem rowBlocks_cover0 (i : S100000x128.Idx) :
    ∃ t : Fin cfg0.N, (cfg0.win 6).flush t = true ∧ i ∈ ((cfg0.win 6).blk t).view.set := by
  have hN : grid0.N = 20 := N_0
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; omega⟩, rfl⟩
  obtain ⟨-, -, -, -, -, -, -, -, -, -, -, -, e60, e61⟩ := block_index0 t
  refine ⟨t, flush0_6 t, ?_⟩
  rw [mem_rowBlock0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE FIRST LAYER'S OUTPUT ARRAY after its kernel: the rectified entry of the arrays the kernel finds, index by index. -/
theorem final0_of (hpay : ∀ (x0 : FVec Ideal S5000x128 .f32) (x1 : FVec Ideal S5000x1 .f32) (x2 : FVec Ideal S5000x128 .f32) (x3 x4 : FVec Ideal S128x128 .f32) (x5 : FVec Ideal S1x128 .f32) (p : Fin 5000) (q : Fin 128), k0_pay1 (F := Ideal) x0 x1 x2 x3 x4 x5 (ix2 p q) = relu0 (kerEntry x0 x1 x2 x3 x4 x5 p q)) (c : Dev nD) :
    (dat0 (F := Ideal) V c).arrAt 6 cfg0.N = fun (i : S100000x128.Idx) => relu0 (kerEntry (V c main_v22) (V c main_v12) (V c main_arg0) (V c main_arg2) (V c main_arg3) (V c main_v23) (i 0) (i 1)) :=
  (dat0 (F := Ideal) V c).arrAt_eq_of_cover 6 (layer0 V c) (fun t _ => flushed0_eq V hpay c t) rowBlocks_cover0

/-! ## The second layer -/

/-- The array the second layer's kernel leaves: the entry of the arrays it finds, index by index. -/
abbrev layer1 (c : Dev nD) : S100000x128.Idx → EReal := fun (i : S100000x128.Idx) =>
  kerEntry (V c main_v34) (V c main_v12) (V c main_v24) (V c main_arg5) (V c main_arg6) (V c main_v35) (i 0) (i 1)

/-- The windows' block indices, decided over the grid: at point t the aggregated rows, the inverse counts, the node rows and
    the output are at row block t, column block 0; the two weight matrices and the bias are whole, at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- One entry of what a point writes: when the blocks hold, in their row p, the arrays' row of the output index j, and
    the whole weight matrices and bias, the payload's entry (p, q) is the array-level entry at j. -/
theorem block_entry1 (hpay : ∀ (x0 : FVec Ideal S5000x128 .f32) (x1 : FVec Ideal S5000x1 .f32) (x2 : FVec Ideal S5000x128 .f32) (x3 x4 : FVec Ideal S128x128 .f32) (x5 : FVec Ideal S1x128 .f32) (p : Fin 5000) (q : Fin 128), k1_pay1 (F := Ideal) x0 x1 x2 x3 x4 x5 (ix2 p q) = kerEntry x0 x1 x2 x3 x4 x5 p q)
    (A X : S100000x128.Idx → EReal) (I : S100000x1.Idx → EReal) (Wl Wr : S128x128.Idx → EReal) (B : S1x128.Idx → EReal)
    (a x : FVec Ideal S5000x128 .f32) (i : FVec Ideal S5000x1 .f32) (wl wr : FVec Ideal S128x128 .f32)
    (b : FVec Ideal S1x128 .f32) (j : S100000x128.Idx) (p : Fin 5000) (q : Fin 128) (hq : (j 1).val = q.val)
    (ha : ∀ k : Fin 128, a (ix2 p k) = A (ix2 (j 0) k)) (hi : i (ix2 p (0 : Fin 1)) = I (ix2 (j 0) (0 : Fin 1)))
    (hx : ∀ k : Fin 128, x (ix2 p k) = X (ix2 (j 0) k))
    (hwl : ∀ k : Fin 128, wl (ix2 q k) = Wl (ix2 q k)) (hwr : ∀ k : Fin 128, wr (ix2 q k) = Wr (ix2 q k))
    (hb : b (ix2 (0 : Fin 1) q) = B (ix2 (0 : Fin 1) q)) :
    k1_pay1 (F := Ideal) a i x wl wr b (ix2 p q) = kerEntry A I X Wl Wr B (j 0) (j 1) := by
  have e : j 1 = q := Fin.ext hq
  rw [hpay, e]
  exact kerEntry_congr A X I a x i Wl Wr wl wr B b (j 0) p q ha hi hx hwl hwr hb

/-- WHAT POINT t WRITES BACK is the block of rows it covers of the second layer's array. -/
theorem flushed1_eq (hpay : ∀ (x0 : FVec Ideal S5000x128 .f32) (x1 : FVec Ideal S5000x1 .f32) (x2 : FVec Ideal S5000x128 .f32) (x3 x4 : FVec Ideal S128x128 .f32) (x5 : FVec Ideal S1x128 .f32) (p : Fin 5000) (q : Fin 128), k1_pay1 (F := Ideal) x0 x1 x2 x3 x4 x5 (ix2 p q) = kerEntry x0 x1 x2 x3 x4 x5 p q) (c : Dev nD) (t : Fin cfg1.N) :
    (dat1 (F := Ideal) V c).flushed 6 t = ((cfg1.win 6).blk t).view.read (Elt Ideal) (layer1 V c) := by
  show (cfg1.win 6).cut (grid1.coords t) ((dat1 (F := Ideal) V c).after 6 t) = _
  rw [after1_6]
  unfold out1_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  obtain ⟨e00, e01, e10, e11, e20, e21, e30, e31, e40, e41, e50, e51, e60, e61⟩ := block_index1 t
  refine funext fun (y : S5000x128.Idx) => ?_
  obtain ⟨p, q, rfl⟩ : ∃ (p : Fin 5000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 p q)
    = kerEntry (V c main_v34) (V c main_v12) (V c main_v24) (V c main_arg5) (V c main_arg6) (V c main_v35)
        ((((cfg1.win 6).blk t).view.emb (ix2 p q)) 0) ((((cfg1.win 6).blk t).view.emb (ix2 p q)) 1)
  refine block_entry1 hpay (V c main_v34) (V c main_v24) (V c main_v12) (V c main_arg5) (V c main_arg6) (V c main_v35)
    (iblk1 V c 0 t) (iblk1 V c 2 t) (iblk1 V c 1 t) (iblk1 V c 3 t) (iblk1 V c 4 t) (iblk1 V c 5 t)
    (((cfg1.win 6).blk t).view.emb (ix2 p q)) p q ?_ ?_ ?_ ?_ ?_ ?_ ?_
  · show win1_6.index t (1 : Fin 2) * 128 + 1 * q.val = q.val
    omega
  · intro k
    show (V c main_v34 : S100000x128.Idx → EReal) (((cfg1.win 0).blk t).view.emb (ix2 p k))
      = (V c main_v34 : S100000x128.Idx → EReal) (ix2 ((((cfg1.win 6).blk t).view.emb (ix2 p q)) 0) k)
    congr 1; funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · show (V c main_v12 : S100000x1.Idx → EReal) (((cfg1.win 1).blk t).view.emb (ix2 p (0 : Fin 1)))
      = (V c main_v12 : S100000x1.Idx → EReal) (ix2 ((((cfg1.win 6).blk t).view.emb (ix2 p q)) 0) (0 : Fin 1))
    congr 1; funext a; apply Fin.ext
    match a with
    | ⟨0, _⟩ => show win1_1.index t (0 : Fin 2) * 5000 + 1 * p.val = win1_6.index t (0 : Fin 2) * 5000 + 1 * p.val; omega
    | ⟨1, _⟩ => show win1_1.index t (1 : Fin 2) * 1 + 1 * (0 : Fin 1).val = (0 : Fin 1).val; omega
  · intro k
    show (V c main_v24 : S100000x128.Idx → EReal) (((cfg1.win 2).blk t).view.emb (ix2 p k))
      = (V c main_v24 : S100000x128.Idx → EReal) (ix2 ((((cfg1.win 6).blk t).view.emb (ix2 p q)) 0) k)
    congr 1; funext a; apply Fin.ext
    match a with
    | ⟨0, _⟩ => show win1_2.index t (0 : Fin 2) * 5000 + 1 * p.val = win1_6.index t (0 : Fin 2) * 5000 + 1 * p.val; omega
    | ⟨1, _⟩ => show win1_2.index t (1 : Fin 2) * 128 + 1 * k.val = k.val; omega
  · intro k
    show (V c main_arg5 : S128x128.Idx → EReal) (((cfg1.win 3).blk t).view.emb (ix2 q k))
      = (V c main_arg5 : S128x128.Idx → EReal) (ix2 q k)
    congr 1; funext a; apply Fin.ext
    match a with
    | ⟨0, _⟩ => show win1_3.index t (0 : Fin 2) * 128 + 1 * q.val = q.val; omega
    | ⟨1, _⟩ => show win1_3.index t (1 : Fin 2) * 128 + 1 * k.val = k.val; omega
  · intro k
    show (V c main_arg6 : S128x128.Idx → EReal) (((cfg1.win 4).blk t).view.emb (ix2 q k))
      = (V c main_arg6 : S128x128.Idx → EReal) (ix2 q k)
    congr 1; funext a; apply Fin.ext
    match a with
    | ⟨0, _⟩ => show win1_4.index t (0 : Fin 2) * 128 + 1 * q.val = q.val; omega
    | ⟨1, _⟩ => show win1_4.index t (1 : Fin 2) * 128 + 1 * k.val = k.val; omega
  · show (V c main_v35 : S1x128.Idx → EReal) (((cfg1.win 5).blk t).view.emb (ix2 (0 : Fin 1) q))
      = (V c main_v35 : S1x128.Idx → EReal) (ix2 (0 : Fin 1) q)
    congr 1; funext a; apply Fin.ext
    match a with
    | ⟨0, _⟩ => show win1_5.index t (0 : Fin 2) * 1 + 1 * (0 : Fin 1).val = (0 : Fin 1).val; omega
    | ⟨1, _⟩ => show win1_5.index t (1 : Fin 2) * 128 + 1 * q.val = q.val; omega

/-- An index of the output array is in the block of rows point t covers iff each coordinate is in the block's range on its
    axis. -/
theorem mem_rowBlock1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v36).slice (win1_6.rect t)).set ↔ _
  rw [View.set_slice_whole, Rect.mem_set_unit]
  exact Iff.rfl

/-- The twenty blocks of 5000 rows cover the 100000 rows: row r is in the block of point r / 5000, which writes back. -/
theorem rowBlocks_cover1 (i : S100000x128.Idx) :
    ∃ t : Fin cfg1.N, (cfg1.win 6).flush t = true ∧ i ∈ ((cfg1.win 6).blk t).view.set := by
  have hN : grid1.N = 20 := N_1
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < grid1.N; omega⟩, rfl⟩
  obtain ⟨-, -, -, -, -, -, -, -, -, -, -, -, e60, e61⟩ := block_index1 t
  refine ⟨t, flush1_6 t, ?_⟩
  rw [mem_rowBlock1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE SECOND LAYER'S OUTPUT ARRAY after its kernel: the entry of the arrays the kernel finds, index by index. -/
theorem final1_of (hpay : ∀ (x0 : FVec Ideal S5000x128 .f32) (x1 : FVec Ideal S5000x1 .f32) (x2 : FVec Ideal S5000x128 .f32) (x3 x4 : FVec Ideal S128x128 .f32) (x5 : FVec Ideal S1x128 .f32) (p : Fin 5000) (q : Fin 128), k1_pay1 (F := Ideal) x0 x1 x2 x3 x4 x5 (ix2 p q) = kerEntry x0 x1 x2 x3 x4 x5 p q) (c : Dev nD) :
    (dat1 (F := Ideal) V c).arrAt 6 cfg1.N = fun (i : S100000x128.Idx) => kerEntry (V c main_v34) (V c main_v12) (V c main_v24) (V c main_arg5) (V c main_arg6) (V c main_v35) (i 0) (i 1) :=
  (dat1 (F := Ideal) V c).arrAt_eq_of_cover 6 (layer1 V c) (fun t _ => flushed1_eq V hpay c t) rowBlocks_cover1

end Cert.Sage2.KBlocks

end
-- ==== Proof.KTerms.lean ====
/-
  The host side of the network as functions of the argument arrays, in the vocabulary of one printed program.

  The edge list e has two rows: row 0 the source node of each edge, row 1 its target node. A feature matrix y is
  aggregated by gathering, for every edge, the row of its source node (a negative node number counted from the end)
  and adding it into the row of its target node, from zero: aggOf y e. The count of a node is the same sum of ones:
  cntOf e; its clamp below by one is cmOf e.
  The kernel program scales by the inverse clamped count, a column invCol e = 1 / cmOf e, reshapes a bias vector
  to a row, and computes each layer entry by entry in the kernel's arrangement (Spec: kerEntry): hidden is layer 1
  rectified, out is layer 2 of hidden.
-/
import proofs.«148758_j26817775796491_2_alg».proof.Proof.Gen.KernelIdeal
import proofs.«148758_j26817775796491_2_alg».proof.Proof.Spec

noncomputable section

namespace Cert.Sage2.K

open Idealize.ShloMosaic Idealize.ShloMosaic.ValueIdx Cert.KernelIdeal Cert.KernelIdeal.Facts₀ Cert.KernelIdeal.Facts Cert.Sage2

/-- Row 0 of the edge list as a vector: each edge's source node. -/
def srcVec (e : IVec S2x1600000 32) : IVec S1600000 32 :=
  shapeCast _ (extractStridedSlice S1x1600000 ![0, 0] e slices_S2x1600000_S1x1600000_0_0) shapeCasts_S1x1600000_S1600000

/-- Row 1 of the edge list as a vector: each edge's target node. -/
def dstVec (e : IVec S2x1600000 32) : IVec S1600000 32 :=
  shapeCast _ (extractStridedSlice S1x1600000 ![1, 0] e slices_S2x1600000_S1x1600000_1_0) shapeCasts_S1x1600000_S1600000

/-- The source nodes as a column, a negative number counted from the end of the node axis. -/
def srcCol (e : IVec S2x1600000 32) : IVec S1600000x1 32 :=
  broadcastInDim S1600000x1 ![0] bcast_S1600000_S1600000x1_0
    (select (cmpi .slt (srcVec e) (broadcastInDim S1600000 ![] bcast_S_S1600000 (constantI S_ 32 0#32)))
      (addi (srcVec e) (broadcastInDim S1600000 ![] bcast_S_S1600000 (constantI S_ 32 100000#32))) (srcVec e))

/-- The target nodes as a column. -/
def dstCol (e : IVec S2x1600000 32) : IVec S1600000x1 32 :=
  broadcastInDim S1600000x1 ![0] bcast_S1600000_S1600000x1_0 (dstVec e)

/-- Aggregation: every edge adds its source node's row of y into its target node's row, from zero. -/
def aggOf (y : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 y (srcCol e))

/-- The number of edges into each node, as a float sum of ones from zero. -/
def cntOf (e : IVec S2x1600000 32) : FVec Ideal S100000 .f32 :=
  Host.scatterAdd scatter_S100000_S1600000x1_S1600000_n_0_0_1
    (broadcastInDim S100000 ![] bcast_S_S100000 (constant (F := Ideal) S_ .f32 0x00000000#32)) (dstCol e)
    (broadcastInDim S1600000 ![] bcast_S_S1600000 (constant (F := Ideal) S_ .f32 0x3F800000#32))

/-- The count clamped below by one. -/
def cmOf (e : IVec S2x1600000 32) : FVec Ideal S100000 .f32 :=
  maximumf (cntOf e) (broadcastInDim S100000 ![] bcast_S_S100000 (constant (F := Ideal) S_ .f32 0x3F800000#32))

/-- One over the clamped count, as a column. -/
def invCol (e : IVec S2x1600000 32) : FVec Ideal S100000x1 .f32 :=
  broadcastInDim S100000x1 ![0] bcast_S100000_S100000x1_0
    (Host.divf (broadcastInDim S100000 ![] bcast_S_S100000 (constant (F := Ideal) S_ .f32 0x3F800000#32)) (cmOf e))

/-- A bias vector as a one-row matrix. -/
def biasRow (b : FVec Ideal S128 .f32) : FVec Ideal S1x128 .f32 := shapeCast _ b shapeCasts_S128_S1x128

/-- Layer 1 rectified, in the kernel's arrangement. -/
def hidden (x : FVec Ideal S100000x128 .f32) (e : IVec S2x1600000 32) (Wl Wr : FVec Ideal S128x128 .f32)
    (b : FVec Ideal S128 .f32) : FVec Ideal S100000x128 .f32 :=
  fun i => relu0 (kerEntry (aggOf x e) (invCol e) x Wl Wr (biasRow b) (i 0) (i 1))

/-- Layer 2 of the rectified layer 1, in the kernel's arrangement: the kernel program's result. -/
def out (x : FVec Ideal S100000x128 .f32) (e : IVec S2x1600000 32) (W1l W1r : FVec Ideal S128x128 .f32)
    (b1 : FVec Ideal S128 .f32) (W2l W2r : FVec Ideal S128x128 .f32) (b2 : FVec Ideal S128 .f32) :
    FVec Ideal S100000x128 .f32 :=
  fun i => kerEntry (aggOf (hidden x e W1l W1r b1) e) (invCol e) (hidden x e W1l W1r b1) W2l W2r (biasRow b2) (i 0) (i 1)

end Cert.Sage2.K

end
-- ==== Proof.KHost.lean ====
/-
  What the kernel program's host operations leave in each array that a region of the program reads, as named functions of
  the argument arrays.

  Before the first region the host aggregates the feature matrix over the edge list, forms the column of inverse
  clamped counts and reshapes the first bias vector to a row; the feature matrix and the first two weight matrices
  are read as launched. Between the regions the host aggregates the first region's result over the same edge list
  and reshapes the second bias vector; the inverse-count column is the one computed before, and the last two weight
  matrices are read as launched. The second region's result array is what its write-backs leave.
-/
import proofs.«148758_j26817775796491_2_alg».proof.Proof.Gen.KernelIdeal.Frame
import proofs.«148758_j26817775796491_2_alg».proof.Proof.KTerms
import Idealize.ShloMosaic.Lib.StableHlo.Run

set_option maxRecDepth 16384

noncomputable section

namespace Cert.Sage2.KHost

open Idealize.ShloMosaic Idealize.ShloMosaic.TcCoe Idealize.SL.Sem Idealize.ShloMosaic.StableHlo Cert.KernelIdeal Cert.KernelIdeal.Gen Cert.Sage2
open Cert.KernelIdeal.Facts₀ Cert.KernelIdeal.Facts

variable (m : (ℓ : Loc nD τ sig) → Buf (Elt Ideal) ℓ) (ρ : Dev nD → PrngReg) (c : Dev nD)

/-! ## At the first region's entry -/

/-- The feature matrix aggregated over the edge list. -/
theorem V1_v22 : V1 m ρ c main_v22 = K.aggOf (m ((c : Thread nD τ).loc main_arg0)) (m ((c : Thread nD τ).loc main_arg1)) := by
  show StableHlo.after hostOps0 (W0 m ρ c) (Proc.devRef .tc main_v22) = _
  after_results_simp
  rfl

/-- The column of inverse clamped counts. -/
theorem V1_v12 : V1 m ρ c main_v12 = K.invCol (m ((c : Thread nD τ).loc main_arg1)) := by
  show StableHlo.after hostOps0 (W0 m ρ c) (Proc.devRef .tc main_v12) = _
  after_results
  rfl

/-- The feature matrix is as launched: no host operation writes an argument array. -/
theorem V1_arg0 : V1 m ρ c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The first layer's weight matrix on the aggregated rows is as launched. -/
theorem V1_arg2 : V1 m ρ c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The first layer's weight matrix on the nodes' own rows is as launched. -/
theorem V1_arg3 : V1 m ρ c main_arg3 = m ((c : Thread nD τ).loc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The first bias vector as a one-row matrix. -/
theorem V1_v23 : V1 m ρ c main_v23 = K.biasRow (m ((c : Thread nD τ).loc main_arg4)) := by
  show StableHlo.after hostOps0 (W0 m ρ c) (Proc.devRef .tc main_v23) = _
  after_results
  rfl

/-! ## At the first region's exit: what the second stretch of host operations reads -/

/-- The source-node vector, written before the first region, is untouched by it. -/
theorem W2_v1 : W2 m ρ c (Proc.devRef .tc main_v1) = K.srcVec (m ((c : Thread nD τ).loc main_arg1)) := by
  refine (W2_of_ne m ρ c main_v1 (by decide)).trans ?_
  show StableHlo.after hostOps0 (W0 m ρ c) (Proc.devRef .tc main_v1) = _
  after_results_simp
  rfl

/-- The target-node vector, written before the first region, is untouched by it. -/
theorem W2_v3 : W2 m ρ c (Proc.devRef .tc main_v3) = K.dstVec (m ((c : Thread nD τ).loc main_arg1)) := by
  refine (W2_of_ne m ρ c main_v3 (by decide)).trans ?_
  show StableHlo.after hostOps0 (W0 m ρ c) (Proc.devRef .tc main_v3) = _
  after_results_simp
  rfl

/-- The first region's result array holds what its write-backs leave. -/
theorem W2_v24 : W2 m ρ c (Proc.devRef .tc main_v24) = (dat0 (F := Ideal) (V1 m ρ) c).arrAt 6 cfg0.N :=
  W2_arr m ρ c 6

/-- The second bias vector is as launched: neither the first stretch nor the first region writes it. -/
theorem W2_arg7 : W2 m ρ c (Proc.devRef .tc main_arg7) = m ((c : Thread nD τ).loc main_arg7) :=
  (W2_of_ne m ρ c main_arg7 (by decide)).trans
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## At the second region's entry -/

/-- The first region's result array, which the second stretch only reads. -/
theorem V3_v24 : V3 m ρ c main_v24 = (dat0 (F := Ideal) (V1 m ρ) c).arrAt 6 cfg0.N :=
  (StableHlo.after_of_forall_not_mem (b := Proc.devRef .tc main_v24) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v24 m ρ c)

/-- The first region's result aggregated over the edge list. -/
theorem V3_v34 : V3 m ρ c main_v34
    = K.aggOf ((dat0 (F := Ideal) (V1 m ρ) c).arrAt 6 cfg0.N) (m ((c : Thread nD τ).loc main_arg1)) := by
  show StableHlo.after hostOps1 (W2 m ρ c) (Proc.devRef .tc main_v34) = _
  after_results_simp
  rw [W2_v1 m ρ c, W2_v3 m ρ c, W2_v24 m ρ c]
  rfl

/-- The column of inverse clamped counts: the first region reads it and leaves it as entered, the second stretch does
    not write it. -/
theorem V3_v12 : V3 m ρ c main_v12 = K.invCol (m ((c : Thread nD τ).loc main_arg1)) :=
  ((StableHlo.after_of_forall_not_mem (b := Proc.devRef .tc main_v12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_arr m ρ c 1).trans (((dat0 (V1 m ρ) c).arrAt_in 1 rfl _).trans (A_eq0 (V1 m ρ) c 1)))).trans (V1_v12 m ρ c)

/-- The second layer's weight matrix on the aggregated rows is as launched. -/
theorem V3_arg5 : V3 m ρ c main_arg5 = m ((c : Thread nD τ).loc main_arg5) :=
  ((StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_arg5 (by decide))).trans
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The second layer's weight matrix on the nodes' own rows is as launched. -/
theorem V3_arg6 : V3 m ρ c main_arg6 = m ((c : Thread nD τ).loc main_arg6) :=
  ((StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_arg6 (by decide))).trans
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The second bias vector as a one-row matrix. -/
theorem V3_v35 : V3 m ρ c main_v35 = K.biasRow (m ((c : Thread nD τ).loc main_arg7)) := by
  show StableHlo.after hostOps1 (W2 m ρ c) (Proc.devRef .tc main_v35) = _
  after_results_simp
  rw [W2_arg7 m ρ c]
  rfl

/-! ## At the second region's exit -/

/-- The program's result array holds what the second region's write-backs leave. -/
theorem W4_v36 : W4 m ρ c (Proc.devRef .tc main_v36) = (dat1 (F := Ideal) (V3 m ρ) c).arrAt 6 cfg1.N :=
  W4_arr m ρ c 6

end Cert.Sage2.KHost

end
-- ==== Proof.KValue.lean ====
/-
  The kernel program's result array as one function of the argument arrays.

  The result is region 1's output array after its last grid point. Every row block of it is what the point covering it
  wrote back: a layer's entries in the kernel's arrangement over the arrays region 1 reads. Of those, the hidden matrix
  is region 0's output array (the rectified first layer over the arrays region 0 reads), the aggregated matrix is the
  host aggregation of that hidden matrix, the inverse-count column and the bias row are host functions of the arguments,
  and the weights are arguments. Substituting, the result is layer 2 of the rectified layer 1: K.out.
-/
import proofs.«148758_j26817775796491_2_alg».proof.Proof.KPayload
import proofs.«148758_j26817775796491_2_alg».proof.Proof.KBlocks
import proofs.«148758_j26817775796491_2_alg».proof.Proof.KHost
import proofs.«148758_j26817775796491_2_alg».proof.Proof.KTerms

noncomputable section

namespace Cert.Sage2.KValue

open Idealize.ShloMosaic Idealize.ShloMosaic.TcCoe Idealize.ShloMosaic.ValueIdx Idealize.SL.Sem
open Cert.KernelIdeal Cert.KernelIdeal.Gen Cert.Sage2

variable (m : (ℓ : Loc nD τ sig) → Buf (Elt Ideal) ℓ) (ρ : Dev nD → PrngReg) (c : Dev nD)

/-- Region 0's output array after its last point: the rectified first layer of the arguments. -/
theorem hidden_value :
    (dat0 (F := Ideal) (V1 m ρ) c).arrAt 6 cfg0.N
      = K.hidden (m ((c : Thread nD τ).loc main_arg0)) (m ((c : Thread nD τ).loc main_arg1))
          (m ((c : Thread nD τ).loc main_arg2)) (m ((c : Thread nD τ).loc main_arg3)) (m ((c : Thread nD τ).loc main_arg4)) := by
  rw [KBlocks.final0_of (V1 m ρ) KPayload.pay0_apply c,
    KHost.V1_v22, KHost.V1_v12, KHost.V1_arg0, KHost.V1_arg2, KHost.V1_arg3, KHost.V1_v23]
  rfl

/-- The result array after the run: layer 2 of the rectified layer 1 of the arguments. -/
theorem result_value :
    W4 m ρ c (Proc.devRef .tc main_v36)
      = K.out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [KHost.W4_v36, KBlocks.final1_of (V3 m ρ) KPayload.pay1_apply c,
    KHost.V3_v34, KHost.V3_v12, KHost.V3_v24, KHost.V3_arg5, KHost.V3_arg6, KHost.V3_v35, hidden_value]
  rfl

end Cert.Sage2.KValue

end
-- ==== Proof.RTerms.lean ====
/-
  The host side of the network as functions of the argument arrays, in the vocabulary of one printed program.

  The edge list e has two rows: row 0 the source node of each edge, row 1 its target node. A feature matrix y is
  aggregated by gathering, for every edge, the row of its source node (a negative node number counted from the end)
  and adding it into the row of its target node, from zero: aggOf y e. The count of a node is the same sum of ones:
  cntOf e; its clamp below by one is cmOf e.
  The reference program divides the aggregated rows by the clamped count, multiplies by the transposed weight
  matrices, and adds the bias broadcast over the rows: layer; hidden is layer 1 rectified, out is layer 2 of hidden.
-/
import proofs.«148758_j26817775796491_2_alg».proof.Proof.Gen.ReferenceIdeal
import proofs.«148758_j26817775796491_2_alg».proof.Proof.Spec

noncomputable section

namespace Cert.Sage2.R

open Idealize.ShloMosaic Idealize.ShloMosaic.ValueIdx Cert.ReferenceIdeal Cert.ReferenceIdeal.Facts₀ Cert.ReferenceIdeal.Facts Cert.Sage2

/-- Row 0 of the edge list as a vector: each edge's source node. -/
def srcVec (e : IVec S2x1600000 32) : IVec S1600000 32 :=
  shapeCast _ (extractStridedSlice S1x1600000 ![0, 0] e slices_S2x1600000_S1x1600000_0_0) shapeCasts_S1x1600000_S1600000

/-- Row 1 of the edge list as a vector: each edge's target node. -/
def dstVec (e : IVec S2x1600000 32) : IVec S1600000 32 :=
  shapeCast _ (extractStridedSlice S1x1600000 ![1, 0] e slices_S2x1600000_S1x1600000_1_0) shapeCasts_S1x1600000_S1600000

/-- The source nodes as a column, a negative number counted from the end of the node axis. -/
def srcCol (e : IVec S2x1600000 32) : IVec S1600000x1 32 :=
  broadcastInDim S1600000x1 ![0] bcast_S1600000_S1600000x1_0
    (select (cmpi .slt (srcVec e) (broadcastInDim S1600000 ![] bcast_S_S1600000 (constantI S_ 32 0#32)))
      (addi (srcVec e) (broadcastInDim S1600000 ![] bcast_S_S1600000 (constantI S_ 32 100000#32))) (srcVec e))

/-- The target nodes as a column. -/
def dstCol (e : IVec S2x1600000 32) : IVec S1600000x1 32 :=
  broadcastInDim S1600000x1 ![0] bcast_S1600000_S1600000x1_0 (dstVec e)

/-- Aggregation: every edge adds its source node's row of y into its target node's row, from zero. -/
def aggOf (y : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 y (srcCol e))

/-- The number of edges into each node, as a float sum of ones from zero. -/
def cntOf (e : IVec S2x1600000 32) : FVec Ideal S100000 .f32 :=
  Host.scatterAdd scatter_S100000_S1600000x1_S1600000_n_0_0_1
    (broadcastInDim S100000 ![] bcast_S_S100000 (constant (F := Ideal) S_ .f32 0x00000000#32)) (dstCol e)
    (broadcastInDim S1600000 ![] bcast_S_S1600000 (constant (F := Ideal) S_ .f32 0x3F800000#32))

/-- The count clamped below by one. -/
def cmOf (e : IVec S2x1600000 32) : FVec Ideal S100000 .f32 :=
  maximumf (cntOf e) (broadcastInDim S100000 ![] bcast_S_S100000 (constant (F := Ideal) S_ .f32 0x3F800000#32))

/-- One layer on the host: (A / cm) · Wlᵀ + x · Wrᵀ + b, the count and the bias broadcast over the matrix. -/
def layer (A : FVec Ideal S100000x128 .f32) (cm : FVec Ideal S100000 .f32) (x : FVec Ideal S100000x128 .f32)
    (Wl Wr : FVec Ideal S128x128 .f32) (b : FVec Ideal S128 .f32) : FVec Ideal S100000x128 .f32 :=
  addf (addf
      (Host.dotGeneral dot_S100000x128_S128x128_S100000x128_1_0_0_1_n_n none
        (Host.divf A (broadcastInDim S100000x128 ![0, 1] bcast_S100000x1_S100000x128_0_1
          (broadcastInDim S100000x1 ![0] bcast_S100000_S100000x1_0 cm)))
        (transpose S128x128 [1, 0] Wl transposes_S128x128_S128x128_1_0))
      (Host.dotGeneral dot_S100000x128_S128x128_S100000x128_1_0_0_1_n_n none x
        (transpose S128x128 [1, 0] Wr transposes_S128x128_S128x128_1_0)))
    (broadcastInDim S100000x128 ![0, 1] bcast_S1x128_S100000x128_0_1 (broadcastInDim S1x128 ![1] bcast_S128_S1x128_1 b))

/-- Layer 1 rectified. -/
def hidden (x : FVec Ideal S100000x128 .f32) (e : IVec S2x1600000 32) (Wl Wr : FVec Ideal S128x128 .f32)
    (b : FVec Ideal S128 .f32) : FVec Ideal S100000x128 .f32 :=
  maximumf (layer (aggOf x e) (cmOf e) x Wl Wr b)
    (broadcastInDim S100000x128 ![] bcast_S_S100000x128 (constant (F := Ideal) S_ .f32 0x00000000#32))

/-- Layer 2 of the rectified layer 1: the reference program's result. -/
def out (x : FVec Ideal S100000x128 .f32) (e : IVec S2x1600000 32) (W1l W1r : FVec Ideal S128x128 .f32)
    (b1 : FVec Ideal S128 .f32) (W2l W2r : FVec Ideal S128x128 .f32) (b2 : FVec Ideal S128 .f32) :
    FVec Ideal S100000x128 .f32 :=
  layer (aggOf (hidden x e W1l W1r b1) e) (cmOf e) (hidden x e W1l W1r b1) W2l W2r b2

end Cert.Sage2.R

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.LibBcastInDim.lean ====
/-
  `stablehlo.broadcast_in_dim` of small shapes, read at an index given by coordinates.

  A vector laid along the second axis of a one-row matrix, a one-row matrix repeated down the rows, a vector laid down
  the first axis of a one-column matrix, and a one-column matrix repeated across the columns: each entry of the result
  is the operand's entry at the coordinates the operand has.
-/
import Idealize.ShloMosaic.Lib.Pipeline.Value
import Idealize.ShloMosaic.Lib.ValueIdx

namespace Cert.BcastInDim

open Idealize.ShloMosaic Idealize.ShloMosaic.ValueIdx

variable {α : Type}

/-- A scalar repeated over any shape: every entry is the scalar. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [b] as the one row of a [1, b] matrix: entry (u, q) is the vector's entry q. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix [1, b] repeated down a rows: entry (k, q) is the row's entry q. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (k : Fin a) (q : Fin b) :
    broadcastInDim ⟨2, ![a, b]⟩ ![0, 1] h x (ix2 k q) = x (ix2 (0 : Fin 1) q) := by
  refine broadcastInDim_apply _ h x (ix2 k q) (ix2 (0 : Fin 1) q) fun ax => ?_
  match ax with
  | ⟨0, _⟩ => rfl
  | ⟨1, _⟩ =>
    show q.val = if b = 1 then 0 else q.val
    split
    · have := q.isLt; omega
    · rfl

/-- A vector [a] as the one column of an [a, 1] matrix: entry (k, u) is the vector's entry k. -/
theorem vec_col_apply {a : ℕ} (x : (⟨1, ![a]⟩ : Shape).Idx → α)
    (h : (⟨1, ![a]⟩ : Shape).BroadcastsInDim ⟨2, ![a, 1]⟩ (![0] : Fin 1 → Fin 2)) (k : Fin a) (u : Fin 1) :
    broadcastInDim ⟨2, ![a, 1]⟩ ![0] h x (ix2 k u) = x (ix1 k) := by
  refine broadcastInDim_apply _ h x (ix2 k u) (ix1 k) fun ax => ?_
  match ax with
  | ⟨0, _⟩ =>
    show k.val = if a = 1 then 0 else k.val
    split
    · have := k.isLt; omega
    · rfl

/-- A one-column matrix [a, 1] repeated across b columns: entry (k, q) is the column's entry k. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (k : Fin a) (q : Fin b) :
    broadcastInDim ⟨2, ![a, b]⟩ ![0, 1] h x (ix2 k q) = x (ix2 k (0 : Fin 1)) := by
  refine broadcastInDim_apply _ h x (ix2 k q) (ix2 k (0 : Fin 1)) fun ax => ?_
  match ax with
  | ⟨0, _⟩ =>
    show k.val = if a = 1 then 0 else k.val
    split
    · have := k.isLt; omega
    · rfl
  | ⟨1, _⟩ => rfl

end Cert.BcastInDim
-- ==== Proof.RefValue.lean ====
/-
  The reference program's result as two host layers, and one host layer read at an entry.

  * `res_eq`: the composed term the reference program computes is layer 2 of the rectified layer 1, each layer
    (A / cm) · Wlᵀ + x · Wrᵀ + b with A the aggregation of the layer's input over the edge list and cm the clamped count.
  * `layer_apply`: entry (p, q) of one host layer is
      (∑ k, (A(p,k) / cm(p)) · Wl(q,k) + ∑ k, x(p,k) · Wr(q,k)) + b(q):
    a matrix product at (p, q) is the sum over the contracted axis, the transposed weights read Wl(q,k) at (k, q), the
    clamped count broadcast down a column and across the columns reads cm(p), the bias broadcast along a row and down
    the rows reads b(q).
  * `hidden_apply`: the rectified layer 1 at (p, q) is the larger of that entry and zero.
-/
import proofs.«148758_j26817775796491_2_alg».proof.Proof.Gen.ReferenceIdeal.Read
import proofs.«148758_j26817775796491_2_alg».proof.Proof.RTerms
import proofs.«148758_j26817775796491_2_alg».proof.Proof.LibSageLayer
import proofs.«148758_j26817775796491_2_alg».proof.Proof.LibBcastInDim
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.Sage2.RefValue

open Idealize.ShloMosaic Idealize.ShloMosaic.ValueIdx Idealize.ShloMosaic.TcCoe Idealize.SL.Sem Cert.ReferenceIdeal
  Cert.ReferenceIdeal.Gen Cert.ReferenceIdeal.Facts₀ Cert.ReferenceIdeal.Facts Cert.Sage2

set_option maxRecDepth 8192 in
/-- The reference program's result is layer 2 of the rectified layer 1 of the argument arrays. -/
theorem res_eq (m : (ℓ : Loc nD τ sig) → Buf (Elt Ideal) ℓ) (c : Dev nD) :
    Cert.ReferenceIdeal.Value.res_main_v58 (F := Ideal) m c
      = R.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v58 R.out R.hidden R.layer R.aggOf R.cmOf R.cntOf R.dstCol R.srcCol R.dstVec R.srcVec
  rfl

/-- The four index facts of the layer's matrix product [100000, 128] · [128, 128]: row of the left operand, contracted
    position in both, column of the right operand. -/
theorem dot_lhs0 (i : S100000x128.Idx) (u : dot_S100000x128_S128x128_S100000x128_1_0_0_1_n_n.contr.Idx) :
    (dot_S100000x128_S128x128_S100000x128_1_0_0_1_n_n.lhsIdx i u 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem dot_lhs1 (i : S100000x128.Idx) (u : dot_S100000x128_S128x128_S100000x128_1_0_0_1_n_n.contr.Idx) :
    (dot_S100000x128_S128x128_S100000x128_1_0_0_1_n_n.lhsIdx i u 1).val = (u ⟨0, by decide⟩).val :=
  dot_S100000x128_S128x128_S100000x128_1_0_0_1_n_n.lhsIdx_val_of_single rfl i u

theorem dot_rhs0 (i : S100000x128.Idx) (u : dot_S100000x128_S128x128_S100000x128_1_0_0_1_n_n.contr.Idx) :
    (dot_S100000x128_S128x128_S100000x128_1_0_0_1_n_n.rhsIdx i u 0).val = (u ⟨0, by decide⟩).val :=
  dot_S100000x128_S128x128_S100000x128_1_0_0_1_n_n.rhsIdx_val_of_single rfl i u

theorem dot_rhs1 (i : S100000x128.Idx) (u : dot_S100000x128_S128x128_S100000x128_1_0_0_1_n_n.contr.Idx) :
    (dot_S100000x128_S128x128_S100000x128_1_0_0_1_n_n.rhsIdx i u 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The layer's matrix product at (p, q): the sum over the 128 contracted positions. -/
theorem dot_apply (L : FVec Ideal S100000x128 .f32) (W : FVec Ideal S128x128 .f32) (p : Fin 100000) (q : Fin 128) :
    Host.dotGeneral dot_S100000x128_S128x128_S100000x128_1_0_0_1_n_n none L W (ix2 p q)
      = ∑ k : Fin 128, L (ix2 p k) * W (ix2 k q) :=
  Cert.SageLayer.dotGeneral_rows_cols dot_S100000x128_S128x128_S100000x128_1_0_0_1_n_n rfl rfl dot_lhs0 dot_lhs1 dot_rhs0
    dot_rhs1 none L W p q

/-- Entry (p, q) of one host layer. -/
theorem layer_apply (A : FVec Ideal S100000x128 .f32) (cm : FVec Ideal S100000 .f32) (x : FVec Ideal S100000x128 .f32)
    (Wl Wr : FVec Ideal S128x128 .f32) (b : FVec Ideal S128 .f32) (p : Fin 100000) (q : Fin 128) :
    R.layer A cm x Wl Wr b (ix2 p q) = refEntry A cm x Wl Wr b p q := by
  unfold R.layer refEntry
  rw [addf_apply, addf_apply, dot_apply, dot_apply,
    Cert.BcastInDim.row_mat_apply (a := 100000) (b := 128), Cert.BcastInDim.vec_row_apply (b := 128)]
  refine congrArg₂ (· + ·) (congrArg₂ (· + ·) (Finset.sum_congr rfl fun k _ => ?_) (Finset.sum_congr rfl fun k _ => ?_)) rfl
  · rw [hostDivf_apply, Cert.BcastInDim.col_mat_apply (a := 100000) (b := 128), Cert.BcastInDim.vec_col_apply (a := 100000),
      transpose_ix2_apply]
  · rw [transpose_ix2_apply]

/-- Entry (p, q) of the rectified layer 1: the larger of the layer's entry and the zero word. -/
theorem hidden_apply (x : FVec Ideal S100000x128 .f32) (e : IVec S2x1600000 32) (Wl Wr : FVec Ideal S128x128 .f32)
    (b : FVec Ideal S128 .f32) (p : Fin 100000) (q : Fin 128) :
    R.hidden x e Wl Wr b (ix2 p q) = relu0 (refEntry (R.aggOf x e) (R.cmOf e) x Wl Wr b p q) := by
  unfold R.hidden relu0
  rw [maximumf_apply, layer_apply, Cert.BcastInDim.scalar_apply]
  rfl

end Cert.Sage2.RefValue

end
-- ==== Proof.Bridge.lean ====
/-
  The two programs compute one function of the argument arrays.

  Both aggregate with the same host operations (aggOf, cntOf, cmOf are the same data in the two programs' vocabularies).
  Per layer, the kernel's entry (Spec: kerEntry, over the inverse-count column 1 / cm and the bias as a row) equals the
  reference's entry (refEntry, dividing by cm): cm = max(count, 1) is never zero, and on the extended reals
  a · (1 / c) = a / c for every a once c ≠ 0. Equal first layers give equal rectified hidden matrices, hence equal
  aggregations of them, hence equal second layers.
-/
import proofs.«148758_j26817775796491_2_alg».proof.Proof.KTerms
import proofs.«148758_j26817775796491_2_alg».proof.Proof.RTerms
import proofs.«148758_j26817775796491_2_alg».proof.Proof.Spec
import proofs.«148758_j26817775796491_2_alg».proof.Proof.LibBcastInDim
import proofs.«148758_j26817775796491_2_alg».proof.Proof.RefValue
import Idealize.ShloMosaic.Lib.IdealHost
import Idealize.ShloMosaic.Lib.ValueIdx
import Idealize.ShloMosaic.Lib.ValueLayout
import Idealize.ShloMosaic.Lib.Pipeline.Value

noncomputable section

namespace Cert.Sage2.Bridge

open Idealize.ShloMosaic Idealize.ShloMosaic.ValueIdx Cert.Sage2

/-- The aggregation is one function in the two vocabularies: the gather and scatter records hold the same data. -/
theorem aggOf_eq (y : FVec Ideal Cert.KernelIdeal.S100000x128 .f32) (e : IVec Cert.KernelIdeal.S2x1600000 32) :
    K.aggOf y e = R.aggOf y e := rfl

/-- So is the clamped count. -/
theorem cmOf_eq (e : IVec Cert.KernelIdeal.S2x1600000 32) : K.cmOf e = R.cmOf e := rfl

/-- The clamped count of node p is the larger of its count and the word of one. -/
theorem cmOf_apply (e : IVec Cert.ReferenceIdeal.S2x1600000 32) (p : Fin 100000) :
    R.cmOf e (ix1 p) = max (R.cntOf e (ix1 p)) oneW := by
  unfold R.cmOf
  rw [maximumf_apply, Cert.BcastInDim.scalar_apply, constant_apply]

/-- The inverse-count column at node p is the word of one divided by the node's clamped count. -/
theorem invCol_apply (e : IVec Cert.KernelIdeal.S2x1600000 32) (p : Fin 100000) :
    K.invCol e (ix2 p (0 : Fin 1)) = Ideal.div oneW (R.cmOf e (ix1 p)) := by
  unfold K.invCol
  rw [Cert.BcastInDim.vec_col_apply (a := 100000), hostDivf_apply, Cert.BcastInDim.scalar_apply, constant_apply, cmOf_eq]

/-- The bias row at column q is the bias vector's entry q. -/
theorem biasRow_apply (b : FVec Ideal Cert.KernelIdeal.S128 .f32) (q : Fin 128) :
    K.biasRow b (ix2 (0 : Fin 1) q) = b (ix1 q) := by
  unfold K.biasRow
  exact shapeCast_a_1a_apply b _ 0 q

/-- One layer: the kernel's entry over the inverse-count column is the reference's layer at that entry. -/
theorem layer_entry_eq (A x : FVec Ideal Cert.KernelIdeal.S100000x128 .f32) (e : IVec Cert.KernelIdeal.S2x1600000 32)
    (Wl Wr : FVec Ideal Cert.KernelIdeal.S128x128 .f32) (b : FVec Ideal Cert.KernelIdeal.S128 .f32) (p : Fin 100000) (q : Fin 128) :
    kerEntry A (K.invCol e) x Wl Wr (K.biasRow b) p q = R.layer A (R.cmOf e) x Wl Wr b (ix2 p q) :=
  (kerEntry_eq_refEntry A (K.invCol e) (R.cmOf e) (R.cntOf e) x Wl Wr (K.biasRow b) b p q
    (invCol_apply e p) (cmOf_apply e p) (biasRow_apply b q)).trans (RefValue.layer_apply A (R.cmOf e) x Wl Wr b p q).symm

/-- The rectified first layers agree as whole matrices. -/
theorem hidden_eq (x : FVec Ideal Cert.KernelIdeal.S100000x128 .f32) (e : IVec Cert.KernelIdeal.S2x1600000 32)
    (Wl Wr : FVec Ideal Cert.KernelIdeal.S128x128 .f32) (b : FVec Ideal Cert.KernelIdeal.S128 .f32) :
    K.hidden x e Wl Wr b = R.hidden x e Wl Wr b := by
  funext i
  obtain ⟨p, q, rfl⟩ : ∃ (p : Fin 100000) (q : Fin 128), i = ix2 p q := ⟨i 0, i 1, eq_ix2 i⟩
  rw [RefValue.hidden_apply, ← RefValue.layer_apply, ← aggOf_eq, ← layer_entry_eq]
  rfl

/-- The two programs' results agree as whole matrices. -/
theorem out_eq (x : FVec Ideal Cert.KernelIdeal.S100000x128 .f32) (e : IVec Cert.KernelIdeal.S2x1600000 32)
    (W1l W1r : FVec Ideal Cert.KernelIdeal.S128x128 .f32) (b1 : FVec Ideal Cert.KernelIdeal.S128 .f32)
    (W2l W2r : FVec Ideal Cert.KernelIdeal.S128x128 .f32) (b2 : FVec Ideal Cert.KernelIdeal.S128 .f32) :
    K.out x e W1l W1r b1 W2l W2r b2 = R.out x e W1l W1r b1 W2l W2r b2 := by
  funext i
  obtain ⟨p, q, rfl⟩ : ∃ (p : Fin 100000) (q : Fin 128), i = ix2 p q := ⟨i 0, i 1, eq_ix2 i⟩
  unfold R.out
  rw [← hidden_eq, ← aggOf_eq, ← layer_entry_eq]
  rfl

end Cert.Sage2.Bridge

end
-- ==== Proof.lean ====
/-
  The certificate of a two-layer mean-aggregation graph network: the kernel program (host gathers and scatter-adds
  around two tiled kernels) against the host reference.

  Each layer aggregates, for every node, the feature rows of its in-neighbours, scales the sum by the node's in-degree
  clamped below by one, multiplies by a weight matrix, adds the node's own row times a second weight matrix and a bias;
  the first layer is rectified. The kernel program scales by the INVERSE clamped degree, computed once on the host,
  inside a kernel tiled over 20 blocks of 5000 rows; the reference DIVIDES by the clamped degree. Over the extended reals
  a · (1 / c) = a / c for every a as soon as c ≠ 0, and the clamped degree is at least one, so the two programs compute
  one function of the argument arrays: no finiteness of the inputs is used.

  The frames of the two kernel programs are the generated ones; the reference's frame is its run with the result
  dropped. The ideal pass rewrote nothing, so the preservation claim is trivially true. For the algebraic claim: the
  kernel program's run names its result array (KRun), which is layer 2 of the rectified layer 1 in the kernel's
  arrangement (KValue: blocks to arrays, host reads); the reference's run ends at the same composition in the
  reference's arrangement (RefValue); the two arrangements agree entry by entry (Spec, Bridge).
-/
import proofs.«148758_j26817775796491_2_alg».proof.Defs
import proofs.«148758_j26817775796491_2_alg».proof.Proof.Gen.Kernel
import proofs.«148758_j26817775796491_2_alg».proof.Proof.Gen.Kernel.Skeleton
import proofs.«148758_j26817775796491_2_alg».proof.Proof.Gen.Kernel.Launch
import proofs.«148758_j26817775796491_2_alg».proof.Proof.Gen.Kernel.Points
import proofs.«148758_j26817775796491_2_alg».proof.Proof.Gen.Kernel.Frame
import proofs.«148758_j26817775796491_2_alg».proof.Proof.Gen.KernelIdeal
import proofs.«148758_j26817775796491_2_alg».proof.Proof.Gen.KernelIdeal.Skeleton
import proofs.«148758_j26817775796491_2_alg».proof.Proof.Gen.KernelIdeal.Launch
import proofs.«148758_j26817775796491_2_alg».proof.Proof.Gen.KernelIdeal.Points
import proofs.«148758_j26817775796491_2_alg».proof.Proof.Gen.KernelIdeal.Frame
import proofs.«148758_j26817775796491_2_alg».proof.Proof.Gen.ReferenceIdeal
import proofs.«148758_j26817775796491_2_alg».proof.Proof.Gen.ReferenceIdeal.Run
import proofs.«148758_j26817775796491_2_alg».proof.Proof.Gen.ReferenceIdeal.Read
import proofs.«148758_j26817775796491_2_alg».proof.Proof.Gen.Pre_finite_inputs
import proofs.«148758_j26817775796491_2_alg».proof.Proof.KRun
import proofs.«148758_j26817775796491_2_alg».proof.Proof.KValue
import proofs.«148758_j26817775796491_2_alg».proof.Proof.RefValue
import proofs.«148758_j26817775796491_2_alg».proof.Proof.Bridge
import Idealize.ShloMosaic.Adequacy
import Idealize.ShloMosaic.Init

noncomputable section

namespace Cert.Proof

open Idealize.ShloMosaic Idealize.ShloMosaic.TcCoe Idealize.SL.Sem Cert.Sage2

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end at layer 2 of the rectified layer 1 of those arguments:
    the kernel program in its arrangement, the reference in its own, and the two arrangements are one function. -/
theorem algebraic : Cert.algebraic_KernelIdeal_ReferenceIdeal := by
  intro m ρ m' ρ' _ hagree
  refine ⟨fun c => K.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (KValue.result_value m ρ c), (h c).2⟩) (KRun.run (F := Ideal) m ρ)
  · refine (θ_run Cert.ReferenceIdeal.defs _ _).mono (fun _ h c => ⟨(h c).1.trans ?_, (h c).2⟩)
      (Cert.ReferenceIdeal.Value.run (F := Ideal) m' ρ')
    rw [RefValue.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
